-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg1 : FVec F S50000x512 .f32) (main_v63 : IVec S_ 1) (main_v67 : IVec S_ 1) : IVec S_ 1 :=
  let main_v68 : IVec S_ 1 := andi main_v63 main_v67
  let main_cst_26 : FVec F S_ .f32 := constant S_ .f32 0x3F800000#32
  let main_v69 : FVec F S50000x512 .f32 := broadcastInDim S50000x512 ![] bcast_S_S50000x512 main_cst_26
  let main_v70 : IVec S50000x512 1 := cmpf .oeq main_arg1 main_v69
  let main_c_27 : IVec S_ 1 := constantI S_ 1 1#1
  let main_v71 : IVec S_ 1 := (fun x v => Host.reduce IntOp.andi x v reducesTo_S50000x512_S_d0_1 h_S_) main_v70 main_c_27
  let main_v72 : IVec S_ 1 := andi main_v68 main_v71
  main_v72

def fn_part3 {F : FTy → Type} [FloatOps F] (main_arg1 : FVec F S50000x512 .f32) (main_arg12 : FVec F S128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : FVec F S50000x512 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : FVec F S50000x512 .f32) (main_arg5 : FVec F S128x128 .f32) (main_arg6 : FVec F S128 .f32) (main_arg7 : FVec F S512x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x512 .f32) (main_arg1 : FVec F S50000x512 .f32) (main_arg2 : IVec S2x800000 32) (main_arg3 : FVec F S512x128 .f32) (main_arg4 : FVec F S128 .f32) (main_arg5 : FVec F S128x128 .f32) (main_arg6 : FVec F S128 .f32) (main_arg7 : FVec F S512x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S1x128 : Shape := ⟨2, ![1, 128]⟩
abbrev S1x512 : Shape := ⟨2, ![1, 512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩

abbrev nBuf : Space → Nat
  | .hbm => 67
  | .vmem => 19
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x512, .f32⟩
  | .hbm, ⟨22, _⟩ => ⟨S1x128, .f32⟩
  | .hbm, ⟨23, _⟩ => ⟨S50000, .i32⟩
  | .hbm, ⟨24, _⟩ => ⟨S1x800000, .i32⟩
  | .hbm, ⟨25, _⟩ => ⟨S800000, .i32⟩
  | .hbm, ⟨26, _⟩ => ⟨S850000, .i32⟩
  | .hbm, ⟨27, _⟩ => ⟨S1x800000, .i32⟩
  | .hbm, ⟨28, _⟩ => ⟨S800000, .i32⟩
  | .hbm, ⟨29, _⟩ => ⟨S850000, .i32⟩
  | .hbm, ⟨30, _⟩ => ⟨S_, .f32⟩
  | .hbm, ⟨31, _⟩ => ⟨S850000, .f32⟩
  | .hbm, ⟨32, _⟩ => ⟨S_, .f32⟩
  | .hbm, ⟨33, _⟩ => ⟨S50000, .f32⟩
  | .hbm, ⟨34, _⟩ => ⟨S850000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S_, .f32⟩
  | .hbm, ⟨60, _⟩ => ⟨S50000, .f32⟩
  | .hbm, ⟨61, _⟩ => ⟨S850000x1, .i32⟩
  | .hbm, ⟨62, _⟩ => ⟨S50000, .f32⟩
  | .hbm, ⟨63, _⟩ => ⟨S50000x1, .f32⟩
  | .hbm, ⟨64, _⟩ => ⟨S128x128, .f32⟩
  | .hbm, ⟨65, _⟩ => ⟨S128x128, .f32⟩
  | .hbm, ⟨66, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S128_S1x128 : S128.ShapeCasts S1x128
  slices_S50000x512_S1x512_0_0 : S50000x512.Slices ![0, 0] S1x512
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S256x128_S128x128_0_0 : S256x128.Slices ![0, 0] S128x128
  slices_S256x128_S128x128_128_0 : S256x128.Slices ![128, 0] S128x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  dot_S1x512_S512x128_S1x128_1_0_0_1_n_n_wf : DotDims.WF S1x512 S512x128 S1x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)

variable [Facts₀]

def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v43) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S50000x256 : Shape := ⟨2, ![50000, 256]⟩

abbrev nBuf : Space → Nat
  | .hbm => 98
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000, .i32⟩
  | .hbm, ⟨30, _⟩ => ⟨S1x800000, .i32⟩
  | .hbm, ⟨31, _⟩ => ⟨S800000, .i32⟩
  | .hbm, ⟨32, _⟩ => ⟨S850000, .i32⟩
  | .hbm, ⟨33, _⟩ => ⟨S1x800000, .i32⟩
  | .hbm, ⟨34, _⟩ => ⟨S800000, .i32⟩
  | .hbm, ⟨35, _⟩ => ⟨S850000, .i32⟩
  | .hbm, ⟨36, _⟩ => ⟨S_, .f32⟩
  | .hbm, ⟨37, _⟩ => ⟨S850000, .f32⟩
  | .hbm, ⟨38, _⟩ => ⟨S_, .f32⟩
  | .hbm, ⟨39, _⟩ => ⟨S50000, .f32⟩
  | .hbm, ⟨40, _⟩ => ⟨S850000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000, .f32⟩
  | .hbm, ⟨65, _⟩ => ⟨S850000, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x256, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_3 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  concatenates_S50000x128_S50000x128_S50000x256_d1 : Shape.Concatenates [S50000x128, S50000x128] S50000x256 1
  dot_S50000x512_S512x128_S50000x128_1_0_0_1_n_n_wf : DotDims.WF S50000x512 S512x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Net.lean ====
/-
  The network that both programs compute on one node's row, and the two algebraic facts that join their spellings.

  A node's feature row x (512 entries) goes through two rectified dense layers (the hidden branch, 128 entries);
  the node's graph row g (128 entries) comes from the normalised neighbourhood aggregation. The first projector
  layer acts on the two rows set side by side through a [256, 128] weight matrix; splitting that matrix into its
  upper and lower halves, the layer is the sum of two products plus the bias. Two further dense layers follow.

  * "sum_join": a sum over a row made of two rows side by side splits into the two rows' sums (no finiteness: only
    the order of a finite sum changes).
  * "sum_mul_of_nonneg": over the extended reals a factor moves out of a finite sum of NONNEGATIVE terms — the
    distributive law holds there for every factor, infinite ones included. This is what turns the aggregation of
    identical rows v weighted edge by edge, Σₑ v·cₑ, into the row v times the aggregated weight, v·Σₑ cₑ.
-/
import Mathlib.Algebra.BigOperators.Fin
import Mathlib.Data.EReal.Operations
import proofs.«148568_j63290638074042_2_alg».proof.Proof.LibRowLayers

noncomputable section

open scoped BigOperators

namespace Cert.Net

open Idealize.ShloMosaic Idealize.ShloMosaic.ValueIdx Cert.RowLayers

/-- The rectifier's threshold: the float pattern of 0.0, which both programs carry as the same word. -/
abbrev thr : EReal := Ideal.ofBits .f32 0x00000000#32

section Layers
variable {K H : ℕ}

/-- The hidden branch on a row: two dense layers, each followed by the rectifier. -/
def hiddenRow (x : Fin K → EReal) (W1 : (⟨2, ![K, H]⟩ : Shape).Idx → EReal) (b1 : Fin H → EReal)
    (W2 : (⟨2, ![H, H]⟩ : Shape).Idx → EReal) (b2 : Fin H → EReal) : Fin H → EReal :=
  relu thr (dense (relu thr (dense x W1 b1)) W2 b2)

/-- The first projector layer on the two rows f (hidden) and g (graph), each through its own weight block. -/
def mixRow (f g : Fin H → EReal) (Wa Wb : (⟨2, ![H, H]⟩ : Shape).Idx → EReal) (b : Fin H → EReal) : Fin H → EReal :=
  fun j => ((∑ k : Fin H, f k * Wa (ix2 k j)) + ∑ k : Fin H, g k * Wb (ix2 k j)) + b j

/-- The last two projector layers. -/
def headRow (h : Fin H → EReal) (W2 : (⟨2, ![H, H]⟩ : Shape).Idx → EReal) (b2 : Fin H → EReal)
    (W3 : (⟨2, ![H, H]⟩ : Shape).Idx → EReal) (b3 : Fin H → EReal) : Fin H → EReal :=
  dense (dense h W2 b2) W3 b3

end Layers

/-- A sum against a row made of two rows side by side is the sum over the first plus the sum over the second. -/
theorem sum_join {A B C : ℕ} (hC : C = A + B) (f : Fin A → EReal) (g : Fin B → EReal) (w : Fin C → EReal) :
    ∑ k : Fin C, join hC f g k * w k
      = (∑ k : Fin A, f k * w ⟨k.val, by omega⟩) + ∑ k : Fin B, g k * w ⟨A + k.val, by omega⟩ := by
  subst hC
  rw [Fin.sum_univ_add]
  refine congrArg₂ (· + ·) (Finset.sum_congr rfl fun k _ => ?_) (Finset.sum_congr rfl fun k _ => ?_)
  · have h : (Fin.castAdd B k).val < A := k.isLt
    unfold join
    rw [dif_pos h]
    rfl
  · have h : ¬ (Fin.natAdd A k).val < A := by
      show ¬ A + k.val < A
      omega
    unfold join
    rw [dif_neg h]
    have e : (⟨(Fin.natAdd A k).val - A, by have := (Fin.natAdd A k).isLt; omega⟩ : Fin B) = k :=
      Fin.ext (by show A + k.val - A = k.val; omega)
    rw [e]
    rfl

/-- A dense layer on two rows side by side, through a weight matrix with A + B rows, is the sum of the two rows'
    products with the matrix's upper and lower blocks, plus the bias. -/
theorem dense_join {A B C J : ℕ} (hC : C = A + B) (f : Fin A → EReal) (g : Fin B → EReal)
    (W : (⟨2, ![C, J]⟩ : Shape).Idx → EReal) (b : Fin J → EReal) (j : Fin J) :
    dense (join hC f g) W b j
      = ((∑ k : Fin A, f k * W (ix2 ⟨k.val, by omega⟩ j)) + ∑ k : Fin B, g k * W (ix2 ⟨A + k.val, by omega⟩ j)) + b j := by
  unfold dense
  rw [sum_join hC f g (fun k => W (ix2 k j))]

/-- Over the extended reals any factor moves out of a finite sum of nonnegative terms. -/
theorem sum_mul_of_nonneg {ι : Type*} (s : Finset ι) (v : EReal) (c : ι → EReal) (hc : ∀ e ∈ s, 0 ≤ c e) :
    ∑ e ∈ s, v * c e = v * ∑ e ∈ s, c e := by
  classical
  induction s using Finset.induction_on with
  | empty => simp
  | insert a s ha ih =>
    have hs : ∀ e ∈ s, 0 ≤ c e := fun e he => hc e (Finset.mem_insert_of_mem he)
    rw [Finset.sum_insert ha, Finset.sum_insert ha, ih hs,
      EReal.left_distrib_of_nonneg (hc a (Finset.mem_insert_self a s)) (Finset.sum_nonneg hs)]

/-- Rows that are all the same row v, weighted edge by edge by nonnegative weights and summed into an accumulator
    that starts at zero, plus a bias: the same as the summed weights times v, plus the bias. -/
theorem agg_same_rows {ι : Type*} (s : Finset ι) (v : EReal) (c : ι → EReal) (hc : ∀ e ∈ s, 0 ≤ c e)
    (z z' b : EReal) (hz : z = 0) (hz' : z' = 0) :
    (z + ∑ e ∈ s, v * c e) + b = (z' + ∑ e ∈ s, c e) * v + b := by
  rw [sum_mul_of_nonneg s v c hc, hz, hz', zero_add, zero_add, mul_comm]

end Cert.Net

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelRows.lean ====
/-
  The kernel's body, read one row of its block at a time.

  On a block of 2000 rows the body computes, for every row p alone: the hidden branch of the feature row; the graph
  row s[p] · v + bg, where s is the block's column of aggregated coefficients, v the one projected row and bg the
  bias row; the first projector layer as the sum of the hidden row's product with the upper weight block and the
  graph row's product with the lower one, plus the bias; and the last two dense layers. The narrowing to a shorter
  float format before each product does nothing to an extended real.
-/
import proofs.«148568_j63290638074042_2_alg».proof.Proof.Gen.KernelIdeal.Skeleton
import proofs.«148568_j63290638074042_2_alg».proof.Proof.Net
import proofs.«148568_j63290638074042_2_alg».proof.Proof.LibColumnForms

noncomputable section

open scoped BigOperators

namespace Cert.KernelRows

open Idealize.ShloMosaic Idealize.ShloMosaic.ValueIdx
open Cert.RowLayers Cert.Net Cert.ColumnForms Cert.KernelIdeal Cert.KernelIdeal.Gen

/-! ## The two products' dimension numbers say rows times columns -/

theorem rtc512 : RowsTimesCols dot_S2000x512_S512x128_S2000x128_1_0_0_1_n_n where
  rank := rfl
  size := rfl
  lhs0 := fun j q => by
    unfold DotDims.lhsIdx
    rw [dif_neg (show ¬(0 : Fin S2000x512.rank) ∈ dot_S2000x512_S512x128_S2000x128_1_0_0_1_n_n.lhsBatch by decide),
      dif_pos (show (0 : Fin S2000x512.rank) ∈ dot_S2000x512_S512x128_S2000x128_1_0_0_1_n_n.lhsNonContracting by decide)]
    rfl
  lhs1 := fun j q => dot_S2000x512_S512x128_S2000x128_1_0_0_1_n_n.lhsIdx_val_of_single rfl j q
  rhs0 := fun j q => dot_S2000x512_S512x128_S2000x128_1_0_0_1_n_n.rhsIdx_val_of_single rfl j q
  rhs1 := fun j q => by
    unfold DotDims.rhsIdx
    rw [dif_neg (show ¬(1 : Fin S512x128.rank) ∈ dot_S2000x512_S512x128_S2000x128_1_0_0_1_n_n.rhsBatch by decide),
      dif_pos (show (1 : Fin S512x128.rank) ∈ dot_S2000x512_S512x128_S2000x128_1_0_0_1_n_n.rhsNonContracting by decide)]
    rfl

theorem rtc128 : RowsTimesCols dot_S2000x128_S128x128_S2000x128_1_0_0_1_n_n where
  rank := rfl
  size := rfl
  lhs0 := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  lhs1 := fun j q => dot_S2000x128_S128x128_S2000x128_1_0_0_1_n_n.lhsIdx_val_of_single rfl j q
  rhs0 := fun j q => dot_S2000x128_S128x128_S2000x128_1_0_0_1_n_n.rhsIdx_val_of_single rfl j q
  rhs1 := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-! ## The three stretches of the body -/

/-- Row p of the hidden branch on a block. -/
theorem row_hidden (v0 : FVec Ideal S2000x512 .f32) (v2 : FVec Ideal S512x128 .f32) (v5 : FVec Ideal S1x128 .f32)
    (v12 : FVec Ideal S128x128 .f32) (v15 : FVec Ideal S1x128 .f32) (p : Fin 2000) :
    rowOf (k0_pay2 (F := Ideal) v0 v2 v5 v12 v15) p = hiddenRow (rowOf v0 p) v2 (rowOf v5 0) v12 (rowOf v15 0) := by
  unfold k0_pay2 hiddenRow
  simp only [shapeCast_self]
  rw [rowOf_truncf, rowOf_maximumf_splat, rowOf_dense_device rtc128, rowOf_truncf, rowOf_maximumf_splat,
    rowOf_dense_device rtc512, rowOf_truncf]
  rfl

/-- Row p of the graph branch on a block: the row's aggregated coefficient times the projected row, plus the bias row. -/
theorem row_graph (v21 : FVec Ideal S2000x1 .f32) (v23 v28 : FVec Ideal S1x128 .f32) (p : Fin 2000) :
    rowOf (k0_pay3 (F := Ideal) v21 v23 v28) p
      = fun j => v21 (ix2 p (0 : Fin 1)) * v23 (ix2 (0 : Fin 1) j) + v28 (ix2 (0 : Fin 1) j) := by
  unfold k0_pay3
  simp only [shapeCast_self]
  funext j
  show broadcastTo S2000x128 v21 broadcasts_S2000x1_S2000x128 (ix2 p j) * broadcastTo S2000x128 v23 broadcasts_S1x128_S2000x128 (ix2 p j)
    + broadcastTo S2000x128 v28 broadcasts_S1x128_S2000x128 (ix2 p j) = _
  rw [broadcastTo_a1_ab_apply, broadcastTo_1b_ab_apply, broadcastTo_1b_ab_apply]

/-- Row p of the projector on a block, from the hidden rows h and the graph rows g of the block. -/
theorem row_projector (h g : FVec Ideal S2000x128 .bf16) (v34 v37 : FVec Ideal S128x128 .f32) (v43 : FVec Ideal S1x128 .f32)
    (v48 : FVec Ideal S128x128 .f32) (v51 : FVec Ideal S1x128 .f32) (v56 : FVec Ideal S128x128 .f32) (v59 : FVec Ideal S1x128 .f32)
    (p : Fin 2000) :
    rowOf (k0_pay1 (F := Ideal) h g (k0_pay4 (F := Ideal) v34) v37 v43 v48 v51 v56 v59) p
      = headRow (mixRow (rowOf h p) (rowOf g p) v34 v37 (rowOf v43 0)) v48 (rowOf v51 0) v56 (rowOf v59 0) := by
  unfold k0_pay1 k0_pay4 headRow mixRow
  simp only [shapeCast_self]
  rw [rowOf_dense_device rtc128, rowOf_truncf, rowOf_dense_device rtc128, rowOf_truncf, rowOf_addf, rowOf_addf,
    rowOf_matmul_zero rtc128, rowOf_matmul_zero rtc128, rowOf_broadcastTo]
  rfl

end Cert.KernelRows

end
-- ==== Proof.RefHidden.lean ====
/-
  The reference's hidden branch, read one node's row at a time: two dense layers (a product of the row with a weight
  matrix plus a bias vector), each followed by the rectifier.
-/
import proofs.«148568_j63290638074042_2_alg».proof.Proof.Gen.ReferenceIdeal.Read
import proofs.«148568_j63290638074042_2_alg».proof.Proof.Net

noncomputable section

open scoped BigOperators

namespace Cert.RefRows

open Idealize.ShloMosaic Idealize.ShloMosaic.ValueIdx
open Cert.RowLayers Cert.Net Cert.ReferenceIdeal Cert.ReferenceIdeal.Read

/-! ## The three products' dimension numbers say rows times columns -/

theorem rtc512 : RowsTimesCols dot_S50000x512_S512x128_S50000x128_1_0_0_1_n_n :=
  ⟨rfl, rfl, lhs_main_v0_0, lhs_main_v0_1, rhs_main_v0_0, rhs_main_v0_1⟩

theorem rtc128 : RowsTimesCols dot_S50000x128_S128x128_S50000x128_1_0_0_1_n_n :=
  ⟨rfl, rfl, lhs_main_v5_0, lhs_main_v5_1, rhs_main_v5_0, rhs_main_v5_1⟩

theorem rtc256 : RowsTimesCols dot_S50000x256_S256x128_S50000x128_1_0_0_1_n_n :=
  ⟨rfl, rfl, lhs_main_v57_0, lhs_main_v57_1, rhs_main_v57_0, rhs_main_v57_1⟩

/-! ## The hidden branch -/

/-- Row r of the hidden branch: two rectified dense layers of the feature row. -/
theorem row_hidden (x0 : FVec Ideal S50000x512 .f32) (x3 : FVec Ideal S512x128 .f32) (x4 : FVec Ideal S128 .f32)
    (x5 : FVec Ideal S128x128 .f32) (x6 : FVec Ideal S128 .f32) (r : Fin 50000) :
    rowOf (val_main_v9 (F := Ideal) x0 x3 x4 x5 x6) r
      = hiddenRow (rowOf x0 r) x3 (fun j => x4 (ix1 j)) x5 (fun j => x6 (ix1 j)) := by
  unfold val_main_v9 val_main_call1_v0 val_main_call1_cst val_main_v8 val_main_v7 val_main_v6 val_main_v5 val_main_v4
    val_main_call0_v0 val_main_call0_cst val_main_v3 val_main_v2 val_main_v1 val_main_v0 hiddenRow
  rw [rowOf_maximumf_const, rowOf_dense_host rtc128, rowOf_maximumf_const, rowOf_dense_host rtc512]

end Cert.RefRows

end
-- ==== Proof.RefResult.lean ====
/-
  The reference's projector, read one node's row at a time: the hidden row and the graph row set side by side go
  through three dense layers.
-/
import proofs.«148568_j63290638074042_2_alg».proof.Proof.RefHidden

noncomputable section

open scoped BigOperators

namespace Cert.RefRows

open Idealize.ShloMosaic Idealize.ShloMosaic.ValueIdx
open Cert.RowLayers Cert.Net Cert.ReferenceIdeal Cert.ReferenceIdeal.Read

/-! ## The projector -/

/-- Row r of the result: the projector's three dense layers on the hidden row and the graph row side by side. -/
theorem row_result (x0 x1 : FVec Ideal S50000x512 .f32) (x2 : IVec S2x800000 32) (x3 : FVec Ideal S512x128 .f32)
    (x4 : FVec Ideal S128 .f32) (x5 : FVec Ideal S128x128 .f32) (x6 : FVec Ideal S128 .f32) (x7 : FVec Ideal S512x128 .f32)
    (x8 : FVec Ideal S128 .f32) (x9 : FVec Ideal S256x128 .f32) (x10 : FVec Ideal S128 .f32) (x11 : FVec Ideal S128x128 .f32)
    (x12 : FVec Ideal S128 .f32) (x13 : FVec Ideal S128x128 .f32) (x14 : FVec Ideal S128 .f32) (r : Fin 50000) :
    rowOf (val_main_v68 (F := Ideal) x0 x1 x2 x3 x4 x5 x6 x7 x8 x9 x10 x11 x12 x13 x14) r
      = headRow (dense (join (A := 128) (B := 128) (C := 256) rfl (rowOf (val_main_v9 (F := Ideal) x0 x3 x4 x5 x6) r)
            (rowOf (val_main_v55 (F := Ideal) x1 x2 x7 x8) r)) x9 (fun j => x10 (ix1 j)))
          x11 (fun j => x12 (ix1 j)) x13 (fun j => x14 (ix1 j)) := by
  unfold val_main_v68 val_main_v67 val_main_v66 val_main_v65 val_main_v64 val_main_v63 val_main_v62 val_main_v61
    val_main_v60 val_main_v59 val_main_v58 val_main_v57 val_main_v56 headRow
  rw [rowOf_dense_host rtc128, rowOf_dense_host rtc128, rowOf_dense_host rtc256,
    rowOf_concat_cols (A := 128) (B := 128) (C := 256) _ _ _ rfl]

end Cert.RefRows

end
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibSelfLoopSplit.lean ====
/-
  Self-loops handled analytically: a graph whose edge list is extended by one loop per node, against the bare edge list
  plus one extra term per node — over the extended reals.

  A graph convolution with symmetric normalisation adds a loop at every node before it counts degrees and before it
  sums messages. Spelt with arrays, the loops are n extra entries appended to the e real edges: entry e + i of the
  extended list has source i and target i. Every sum "over the extended edges whose target is node c" therefore splits
  into the same sum over the real edges plus exactly ONE more term, the loop at c (`sum_filter_split`, `sum_filter_self`):
  * the degree (a sum of ones) is the real edges' count plus one (`degree_split`), so it is positive, its inverse
    square root needs no guard against zero, and that root is a nonnegative finite number (`rsqrt_of_pos`);
  * a layer's sum of messages, each weighed by the factors of its two ends, is the sum over the real edges of the
    messages weighed at the source only, plus the node's own weighed row, all times the node's own factor
    (`layer_split`) — the target's factor is the same in every term summed at c and moves out of the sum, which on the
    extended reals is sound for a nonnegative finite factor whatever the terms are.
  Also here: the accumulating scatter of single entries into a vector, read at a node (`scatterAdd_entries_apply`).
-/
import Idealize.ShloMosaic.PureOps.Ideal
import Idealize.ShloMosaic.PureOps.Ideal.Laws
import Idealize.ShloMosaic.Lib.ValueIdx
import proofs.«148568_j63290638074042_2_alg».proof.Proof.LibSegmentScale
import proofs.«148568_j63290638074042_2_alg».proof.Proof.LibRowGatherScatter

noncomputable section

open scoped BigOperators

namespace Cert.SelfLoops

open Idealize.ShloMosaic Idealize.ShloMosaic.ValueIdx Idealize.ShloMosaic.RowOps

/-! ## Sums over a rank-1 index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter of single entries into a vector -/

section EntryScatter

/-- The dimension numbers of a segment sum of a vector [E] into a vector [N] at positions [E, 1]: the one operand
    axis is inserted and addressed by the one component of the scatter index; there is no window axis. -/
abbrev entryScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem start_entry (idx : IVec ⟨2, ![E, 1]⟩ w) (k : Fin E) :
    (entryScatterDims N E wf).start (ix1 k) idx 0 = (idx (ix2 k (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 k) ⟨List.idxOf (0 : Fin 1) (entryScatterDims N E wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem window_entry (k : Fin E) : (entryScatterDims N E wf).window (ix1 k) 0 = 0 := by
  unfold ScatterDims.window
  rw [dif_neg (show ¬ (0 : Fin 1) ∈ (entryScatterDims N E wf).sKept by simp [ScatterDims.sKept, Shape.kept, List.mem_filter, List.mem_finRange])]

/-- WHERE AN UPDATE LANDS: edge k's entry lands on node c exactly when k's position word, read signed, is c. -/
theorem resultIdx?_entries (idx : IVec ⟨2, ![E, 1]⟩ w) (k : Fin E) (c : Fin N) :
    (entryScatterDims N E wf).resultIdx? (ix1 k) idx = some (ix1 c) ↔ (idx (ix2 k (0 : Fin 1))).toInt = (c.val : ℤ) := by
  have h0 := start_entry wf idx k
  have w0 := window_entry wf k
  unfold ScatterDims.resultIdx?
  split
  · rename_i h
    rw [Option.some.injEq]
    constructor
    · intro hf
      have e0 := congrArg (fun f => (f 0).val) hf
      have b0 := h 0
      rw [h0, w0] at b0
      have e0' : ((entryScatterDims N E wf).start (ix1 k) idx 0 + ((entryScatterDims N E wf).window (ix1 k) 0 : ℤ)).toNat = c.val := e0
      rw [h0, w0] at e0'
      omega
    · intro hr
      funext a; refine Fin.ext ?_
      match a with
      | ⟨0, _⟩ =>
        show ((entryScatterDims N E wf).start (ix1 k) idx 0 + ((entryScatterDims N E wf).window (ix1 k) 0 : ℤ)).toNat = c.val
        rw [h0, w0]; omega
  · rename_i h
    constructor
    · intro hf; exact absurd hf (by simp)
    · intro hr
      exfalso; apply h
      intro a
      match a with
      | ⟨0, _⟩ =>
        show 0 ≤ (entryScatterDims N E wf).start (ix1 k) idx 0 + ((entryScatterDims N E wf).window (ix1 k) 0 : ℤ)
          ∧ (entryScatterDims N E wf).start (ix1 k) idx 0 + ((entryScatterDims N E wf).window (ix1 k) 0 : ℤ) < (N : ℤ)
        rw [h0, w0]; have := c.isLt; omega

/-- THE ACCUMULATING SCATTER OF ENTRIES AT NODE c, over the extended reals: the operand's entry plus the sum, over the
    edges whose position is c, of the update's entry. -/
theorem scatterAdd_entries_apply {φ : FTy} (x : (⟨1, ![N]⟩ : Shape).Idx → EReal) (idx : IVec ⟨2, ![E, 1]⟩ w)
    (upd : (⟨1, ![E]⟩ : Shape).Idx → EReal) (c : Fin N) :
    Host.scatterAdd (F := Ideal) (φ := φ) (entryScatterDims N E wf) x idx upd (ix1 c)
      = x (ix1 c) + ∑ k ∈ Finset.univ.filter (fun k : Fin E => (idx (ix2 k (0 : Fin 1))).toInt = (c.val : ℤ)), upd (ix1 k) := by
  show x (ix1 c) + ∑ j ∈ Finset.univ.filter (fun j => (entryScatterDims N E wf).resultIdx? j idx = some (ix1 c)), upd j = _
  congr 1
  rw [Finset.sum_filter, sum_idx1, Finset.sum_filter]
  refine Finset.sum_congr rfl fun k _ => ?_
  simp only [resultIdx?_entries wf idx k c]

end EntryScatter

/-! ## An edge list extended by one loop per node -/

section Split
variable {e n en : ℕ}

/-- Where real edge k sits in the extended list. -/
def realEdge (h : en = e + n) (k : Fin e) : Fin en := ⟨k.val, by omega⟩
/-- Where node i's loop sits in the extended list. -/
def loopEdge (h : en = e + n) (i : Fin n) : Fin en := ⟨e + i.val, by omega⟩

/-- A sum over the extended list is the sum over the real edges plus the sum over the loops. -/
theorem sum_split (h : en = e + n) (g : Fin en → EReal) :
    ∑ k, g k = ∑ k : Fin e, g (realEdge h k) + ∑ i : Fin n, g (loopEdge h i) := by
  subst h
  rw [Fin.sum_univ_add]
  rfl

/-- The same for the entries that satisfy a condition. -/
theorem sum_filter_split (h : en = e + n) (P : Fin en → Prop) [DecidablePred P] (g : Fin en → EReal) :
    ∑ k ∈ Finset.univ.filter P, g k
      = ∑ k ∈ Finset.univ.filter (fun k : Fin e => P (realEdge h k)), g (realEdge h k)
        + ∑ i ∈ Finset.univ.filter (fun i : Fin n => P (loopEdge h i)), g (loopEdge h i) := by
  simp only [Finset.sum_filter]
  exact sum_split h _

/-- Among the loops, the one whose target is node c is the loop at c, and it is the only one. -/
theorem sum_filter_self (W : Fin n → ℤ) (hW : ∀ i, W i = (i.val : ℤ)) (c : Fin n) (g : Fin n → EReal) :
    ∑ i ∈ Finset.univ.filter (fun i => W i = (c.val : ℤ)), g i = g c := by
  have hset : Finset.univ.filter (fun i : Fin n => W i = (c.val : ℤ)) = {c} := by
    ext i
    simp only [Finset.mem_filter, Finset.mem_univ, true_and, Finset.mem_singleton, hW]
    constructor
    · intro hi; exact Fin.ext (by exact_mod_cast hi)
    · rintro rfl; rfl
  rw [hset, Finset.sum_singleton]

end Split

/-! ## The degree: the real edges' count plus one -/

section Degree
variable {e n en : ℕ}

/-- The extended list's count at node c is the real edges' count plus the loop's one: every update entry is the same
    number `o`, the loops' targets are the nodes themselves. -/
theorem degree_split (h : en = e + n)
    (ws : ScatterDims.WF ⟨1, ![n]⟩ ⟨2, ![e, 1]⟩ ⟨1, ![e]⟩ [] [0] [0] 1)
    (ws' : ScatterDims.WF ⟨1, ![n]⟩ ⟨2, ![en, 1]⟩ ⟨1, ![en]⟩ [] [0] [0] 1)
    (Z Z' O : (⟨1, ![n]⟩ : Shape).Idx → EReal) (U : (⟨1, ![e]⟩ : Shape).Idx → EReal) (U' : (⟨1, ![en]⟩ : Shape).Idx → EReal)
    (tgt : IVec ⟨2, ![e, 1]⟩ 32) (tgt' : IVec ⟨2, ![en, 1]⟩ 32) (o : EReal)
    (hZ : ∀ i, Z' i = Z i) (hU : ∀ k, U k = o) (hU' : ∀ k, U' k = o) (hO : ∀ i, O i = o)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ)) (c : Fin n) :
    Host.scatterAdd (F := Ideal) (φ := .f32) (entryScatterDims n en ws') Z' tgt' U' (ix1 c)
      = Host.scatterAdd (F := Ideal) (φ := .f32) (entryScatterDims n e ws) Z tgt U (ix1 c) + O (ix1 c) := by
  rw [scatterAdd_entries_apply, scatterAdd_entries_apply, hZ, hO, add_assoc]
  congr 1
  rw [sum_filter_split h]
  congr 1
  · simp only [hreal]
    exact Finset.sum_congr rfl fun k _ => by rw [hU', hU]
  · rw [sum_filter_self (fun i => (tgt' (ix2 (loopEdge h i) (0 : Fin 1))).toInt) hloop c (fun i => U' (ix1 (loopEdge h i))), hU']

/-- A zero plus a sum of copies of a nonnegative number, plus a positive number, is positive. -/
theorem count_pos {ι : Type*} (s : Finset ι) (z o : EReal) (u : ι → EReal) (hz : z = 0) (hu : ∀ k, u k = o) (ho : 0 < o) :
    0 < (z + ∑ k ∈ s, u k) + o := by
  have h1 : (0 : EReal) ≤ z + ∑ k ∈ s, u k := by
    rw [hz, zero_add]
    exact Finset.sum_nonneg fun k _ => by rw [hu]; exact ho.le
  exact lt_of_lt_of_le ho (le_add_of_nonneg_left h1)

end Degree

/-! ## The inverse square root of a positive number needs no guard, and is a nonnegative finite number -/

/-- The pattern of the float 1.0 denotes a positive number. -/
theorem one_pattern_pos : (0 : EReal) < Ideal.ofBits .f32 0x3F800000#32 := by
  have h1 : Ideal.ofBits .f32 0x3F800000#32 = 1 := by
    simp [Ideal.ofBits, Ideal.ieee, -EReal.coe_mul]; norm_num
  rw [h1]; exact zero_lt_one

/-- Where the argument is positive the guard "if 0 < v then 1/√v else 0" answers 1/√v. -/
theorem guarded_eq_of_pos (v : EReal) (hv : 0 < v) :
    Scalar.select (Ideal.cmp .ogt v 0) (Ideal.rsqrt v) 0 = Ideal.rsqrt v := by
  unfold Scalar.select Ideal.cmp
  have hb : BitVec.ofBool (decide ((0 : EReal) < v)) = 1 := by rw [decide_eq_true hv]; rfl
  rw [if_pos hb]

/-- 1/√v of a positive v is a nonnegative finite number. -/
theorem rsqrt_of_pos (v : EReal) (hv : 0 < v) : (0 : EReal) ≤ Ideal.rsqrt v ∧ Ideal.rsqrt v ≠ (⊤ : EReal) := by
  have := Cert.SegmentScale.guardedRsqrt_nonneg_ne_top v
  rwa [guarded_eq_of_pos v hv] at this

/-! ## One layer: both ends' factors edge by edge over the extended list, against the source's factor edge by edge
     over the real edges, the node's own row, and the node's factor once on the whole -/

section Layer
variable {e n en f : ℕ}

/-- THE LAYER IDENTITY at node c, feature q. `Hm` the projected rows, `D` a nonnegative finite factor per node.
    Right: over the real edges, the message of edge k is the source's row times the source's factor; the sum at c,
    plus c's own row times c's factor, is scaled by c's factor. Left: over the extended list, the message of entry k is
    the source's row times the product of the factors of its two ends. The loops' ends are the node itself; an entry
    summed at c has c as its target. -/
theorem layer_split (h : en = e + n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (Z Z' : (⟨2, ![n, f]⟩ : Shape).Idx → EReal) (hZ : ∀ p, Z p = 0) (hZ' : ∀ p, Z' p = 0)
    (tgt : IVec ⟨2, ![e, 1]⟩ 32) (tgt' : IVec ⟨2, ![en, 1]⟩ 32)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ))
    (Hm : (⟨2, ![n, f]⟩ : Shape).Idx → EReal) (D : Fin n → EReal) (hD : ∀ i, (0 : EReal) ≤ D i ∧ D i ≠ (⊤ : EReal))
    (sN : Fin e → Fin n) (sN' tN' : Fin en → Fin n)
    (hs : ∀ k, sN' (realEdge h k) = sN k) (hsl : ∀ i, sN' (loopEdge h i) = i)
    (ht : ∀ (k : Fin en) (c : Fin n), (tgt' (ix2 k (0 : Fin 1))).toInt = (c.val : ℤ) → tN' k = c)
    (M : (⟨2, ![e, f]⟩ : Shape).Idx → EReal) (hM : ∀ k q, M (ix2 k q) = Hm (ix2 (sN k) q) * D (sN k))
    (M' : (⟨2, ![en, f]⟩ : Shape).Idx → EReal)
    (hM' : ∀ k q, M' (ix2 k q) = Hm (ix2 (sN' k) q) * (D (sN' k) * D (tN' k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt M (ix2 c q) + Hm (ix2 c q) * D c) * D c := by
  rw [scatterAdd_rows_apply, scatterAdd_rows_apply, hZ, hZ', zero_add, zero_add,
    EReal.right_distrib_of_nonneg_of_ne_top (hD c).1 (hD c).2,
    Cert.SegmentScale.sum_mul_of_nonneg_ne_top _ _ (hD c).1 (hD c).2, sum_filter_split h]
  congr 1
  · simp only [hreal]
    refine Finset.sum_congr rfl fun k hk => ?_
    have hk' : (tgt (ix2 k (0 : Fin 1))).toInt = (c.val : ℤ) := (Finset.mem_filter.mp hk).2
    rw [hM', hM, hs, ht (realEdge h k) c (by rw [hreal]; exact hk'), mul_assoc]
  · rw [sum_filter_self (fun i => (tgt' (ix2 (loopEdge h i) (0 : Fin 1))).toInt) hloop c (fun i => M' (ix2 (loopEdge h i) q)),
      hM', hsl, ht (loopEdge h c) c (hloop c), mul_assoc]

end Layer

end Cert.SelfLoops

end
-- ==== Proof.RefNorm.lean ====
/-
  Two facts about the reference's graph branch that need no edge list.

  When every entry of x_ones is 1, every row of x_ones · Wg is the row of column sums of Wg. A node's normalising
  factor is 1/√(max(deg, 1)); its argument is at least the number the pattern of 1.0 denotes, which is positive, so
  the factor is nonnegative, and so is an edge's coefficient, the product of the factors gathered at its two ends.
-/
import proofs.«148568_j63290638074042_2_alg».proof.Proof.RefHidden
import proofs.«148568_j63290638074042_2_alg».proof.Proof.LibSelfLoopSplit

noncomputable section

open scoped BigOperators

namespace Cert.RefRows

open Idealize.ShloMosaic Idealize.ShloMosaic.ValueIdx Idealize.ShloMosaic.RowOps
open Cert.RowLayers Cert.Net Cert.SelfLoops Cert.ReferenceIdeal Cert.ReferenceIdeal.Gen Cert.ReferenceIdeal.Read

/-- The column sums of the graph layer's weight matrix: the one row every node's projected row equals when all
    of x_ones is 1. -/
def colSums (x7 : FVec Ideal S512x128 .f32) (q : Fin 128) : EReal := ∑ k : Fin 512, x7 (ix2 k q)

/-- With x_ones all ones, every row of x_ones · Wg is the column sums of Wg. -/
theorem projected_row (x1 : FVec Ideal S50000x512 .f32) (x7 : FVec Ideal S512x128 .f32) (hx : ∀ i, x1 i = 1)
    (n : Fin 50000) (q : Fin 128) : val_main_v24 (F := Ideal) x1 x7 (ix2 n q) = colSums x7 q := by
  show rowOf (val_main_v24 (F := Ideal) x1 x7) n q = _
  unfold val_main_v24
  rw [rowOf_dotGeneral rtc512]
  exact Finset.sum_congr rfl fun k _ => by rw [rowOf_apply, hx, one_mul]

/-- The normalising factor of a node, 1/√(max(deg, 1)), is nonnegative: its argument is at least the pattern of 1.0,
    a positive number. -/
theorem norm_nonneg (x2 : IVec S2x800000 32) (j : S50000.Idx) : 0 ≤ val_main_v23 (F := Ideal) x2 j := by
  rw [val_main_v23_apply, val_main_v22_apply, Ideal.hostUnary_rsqrt_def, Ideal.maximumf_def]
  refine (rsqrt_of_pos _ (lt_of_lt_of_le ?_ (le_max_right _ _))).1
  rw [val_main_v21_apply, val_main_cst_1_apply, Ideal.ofBits_def]
  exact one_pattern_pos

/-- An edge's coefficient, the product of the factors gathered at its two ends, is nonnegative. -/
theorem coef_nonneg (x2 : IVec S2x800000 32) (i : S850000.Idx) : 0 ≤ val_main_v39 (F := Ideal) x2 i := by
  rw [val_main_v39_apply, Ideal.mulf_def]
  refine mul_nonneg ?_ ?_
  · unfold val_main_v31 Host.gather
    exact norm_nonneg x2 _
  · unfold val_main_v38 Host.gather
    exact norm_nonneg x2 _

end Cert.RefRows

end
-- ==== Proof.RefMessage.lean ====
/-
  The message one entry of the extended edge list sends, in the reference: the row of x_ones · Wg gathered at the
  entry's source — the column sums of Wg whichever row that is, when x_ones is all ones — times the entry's
  coefficient, which the program broadcasts from a vector [E] over a column [E, 1] to the [E, 128] messages.
-/
import proofs.«148568_j63290638074042_2_alg».proof.Proof.RefNorm

noncomputable section

open scoped BigOperators

namespace Cert.RefRows

open Idealize.ShloMosaic Idealize.ShloMosaic.ValueIdx Idealize.ShloMosaic.RowOps
open Cert.RowLayers Cert.Net Cert.SelfLoops Cert.ReferenceIdeal Cert.ReferenceIdeal.Gen Cert.ReferenceIdeal.Read

/-- The coefficient aggregated at node r: the accumulator's zero plus the coefficients of the entries of the
    extended edge list whose target, read as a signed integer, is r. -/
def aggCoef (x2 : IVec S2x800000 32) (r : Fin 50000) : EReal :=
  Ideal.ofBits .f32 0x00000000#32
    + ∑ e ∈ Finset.univ.filter (fun e : Fin 850000 => (val_main_v51 (F := Ideal) x2 (ix2 e (0 : Fin 1))).toInt = (r.val : ℤ)),
        val_main_v39 (F := Ideal) x2 (ix1 e)

/-- The message of entry e in column q: the common projected row's entry times the entry's coefficient. -/
theorem message_apply (x1 : FVec Ideal S50000x512 .f32) (x2 : IVec S2x800000 32) (x7 : FVec Ideal S512x128 .f32)
    (hx : ∀ i, x1 i = 1) (e : Fin 850000) (q : Fin 128) :
    val_main_v49 (F := Ideal) x1 x2 x7 (ix2 e q) = colSums x7 q * val_main_v39 (F := Ideal) x2 (ix1 e) := by
  have h47 : val_main_v47 (F := Ideal) x1 x2 x7 (ix2 e q) = colSums x7 q := by
    unfold val_main_v47
    exact (gather_rows_apply (by decide) gather_S50000x128_S850000x1_S850000x128_1_0_n_n_0_1_1128_wf
      (val_main_v24 (F := Ideal) x1 x7) (val_main_v46 (F := Ideal) x2) e q).trans (projected_row x1 x7 hx _ q)
  have h48 : val_main_v48 (F := Ideal) x2 (ix2 e q) = val_main_v39 (F := Ideal) x2 (ix1 e) := by
    rw [val_main_v48_apply, val_main_v40_apply]
    congr 1
    funext a
    match a with
    | ⟨0, _⟩ => rfl
  rw [val_main_v49_apply, h47, h48]
  rfl

end Cert.RefRows

end
-- ==== Proof.RefGraph.lean ====
/-
  Row r of the reference's graph branch: the accumulating scatter of the messages at the entries' targets, read at
  (r, q), is zero plus the sum of the messages of the entries whose target is r; the messages all carry the same row
  (the column sums of Wg) times a nonnegative coefficient, so the row moves out of the sum; then the bias is added.
-/
import proofs.«148568_j63290638074042_2_alg».proof.Proof.RefMessage

noncomputable section

open scoped BigOperators

namespace Cert.RefRows

open Idealize.ShloMosaic Idealize.ShloMosaic.ValueIdx Idealize.ShloMosaic.RowOps
open Cert.RowLayers Cert.Net Cert.SelfLoops Cert.ReferenceIdeal Cert.ReferenceIdeal.Gen Cert.ReferenceIdeal.Read

/-- Row r of the graph branch: the aggregated coefficient times the column sums of Wg, plus the bias. -/
theorem row_graph (x1 : FVec Ideal S50000x512 .f32) (x2 : IVec S2x800000 32) (x7 : FVec Ideal S512x128 .f32)
    (x8 : FVec Ideal S128 .f32) (hx : ∀ i, x1 i = 1) (r : Fin 50000) :
    rowOf (val_main_v55 (F := Ideal) x1 x2 x7 x8) r = fun q => aggCoef x2 r * colSums x7 q + x8 (ix1 q) := by
  funext q
  have hb : val_main_v54 (F := Ideal) x8 (ix2 r q) = x8 (ix1 q) := by
    unfold val_main_v54 val_main_v53
    exact congrFun (rowOf_broadcastInDim_vec x8 bcast_S128_S1x128_1 bcast_S1x128_S50000x128_0_1 r) q
  have hs : val_main_v52 (F := Ideal) x1 x2 x7 (ix2 r q)
      = val_main_v50 (F := Ideal) (ix2 r q)
        + ∑ e ∈ Finset.univ.filter (fun e : Fin 850000 => (val_main_v51 (F := Ideal) x2 (ix2 e (0 : Fin 1))).toInt = (r.val : ℤ)),
            val_main_v49 (F := Ideal) x1 x2 x7 (ix2 e q) := by
    unfold val_main_v52
    exact scatterAdd_rows_apply (φ := .f32) scatter_S50000x128_S850000x1_S850000x128_1_0_0_1_wf
      (val_main_v50 (F := Ideal)) (val_main_v51 (F := Ideal) x2) (val_main_v49 (F := Ideal) x1 x2 x7) r q
  show val_main_v55 (F := Ideal) x1 x2 x7 x8 (ix2 r q) = _
  rw [val_main_v55_apply, hs, hb, Finset.sum_congr rfl (fun e _ => message_apply x1 x2 x7 hx e q)]
  have hz : val_main_v50 (F := Ideal) (ix2 r q) = 0 := by
    rw [val_main_v50_apply, val_main_cst_7_apply]
    exact Ideal.ofBits_zero_f32
  exact agg_same_rows _ (colSums x7 q) (fun e => val_main_v39 (F := Ideal) x2 (ix1 e)) (fun e _ => coef_nonneg x2 _)
    _ _ _ hz Ideal.ofBits_zero_f32

end Cert.RefRows

end
-- ==== Proof.KernelPoint.lean ====
/-
  One entry of one output block of the kernel is the reference's entry.

  Take the kernel's body on blocks x0 … x14 and the reference on argument arrays a0 … a14, a row p of the block
  and the row r of the arrays it stands for. If the feature row is the same, the block's coefficient is the one
  aggregated at r, the bias rows are the bias vectors, the projected row is the column sums of Wg, the two weight
  blocks are the halves of the projector's first matrix, and the other weights are the same arrays, then both
  programs compute, at column q, the same network of the same row: the hidden branch and the last two layers are
  the same functions; the graph rows agree entry by entry; and the first projector layer on two rows side by side
  through a [256, 128] matrix is the sum of the two products with its halves.
-/
import proofs.«148568_j63290638074042_2_alg».proof.Proof.KernelRows
import proofs.«148568_j63290638074042_2_alg».proof.Proof.RefResult
import proofs.«148568_j63290638074042_2_alg».proof.Proof.RefGraph

noncomputable section

open scoped BigOperators

namespace Cert.KernelPoint

open Idealize.ShloMosaic Idealize.ShloMosaic.ValueIdx
open Cert.RowLayers Cert.Net Cert.RefRows Cert.KernelIdeal Cert.KernelIdeal.Gen

/-- The first projector layer on two rows through the two halves of a [256, 128] matrix is the dense layer of the
    rows set side by side through the whole matrix. -/
theorem mix_eq_dense_join (f g : Fin 128 → EReal) (x8 x9 : FVec Ideal S128x128 .f32) (a9 : FVec Ideal S256x128 .f32)
    (b : Fin 128 → EReal)
    (h8 : ∀ k j : Fin 128, x8 (ix2 k j) = a9 (ix2 ⟨k.val, by have := k.isLt; omega⟩ j))
    (h9 : ∀ k j : Fin 128, x9 (ix2 k j) = a9 (ix2 ⟨128 + k.val, by have := k.isLt; omega⟩ j)) :
    mixRow f g x8 x9 b = dense (join (A := 128) (B := 128) (C := 256) rfl f g) a9 b := by
  funext j
  rw [dense_join]
  unfold mixRow
  simp only [h8, h9]

/-- The body's result at (p, q) of a block is the reference's result at (r, q). -/
theorem point_eq
    (x0 : FVec Ideal S2000x512 .f32) (x1 : FVec Ideal S2000x1 .f32) (x2 : FVec Ideal S512x128 .f32) (x3 : FVec Ideal S1x128 .f32)
    (x4 : FVec Ideal S128x128 .f32) (x5 x6 x7 : FVec Ideal S1x128 .f32) (x8 x9 : FVec Ideal S128x128 .f32) (x10 : FVec Ideal S1x128 .f32)
    (x11 : FVec Ideal S128x128 .f32) (x12 : FVec Ideal S1x128 .f32) (x13 : FVec Ideal S128x128 .f32) (x14 : FVec Ideal S1x128 .f32)
    (a0 a1 : FVec Ideal S50000x512 .f32) (a2 : IVec S2x800000 32) (a3 : FVec Ideal S512x128 .f32) (a4 : FVec Ideal S128 .f32)
    (a5 : FVec Ideal S128x128 .f32) (a6 : FVec Ideal S128 .f32) (a7 : FVec Ideal S512x128 .f32) (a8 : FVec Ideal S128 .f32)
    (a9 : FVec Ideal S256x128 .f32) (a10 : FVec Ideal S128 .f32) (a11 : FVec Ideal S128x128 .f32) (a12 : FVec Ideal S128 .f32)
    (a13 : FVec Ideal S128x128 .f32) (a14 : FVec Ideal S128 .f32)
    (hx : ∀ i, a1 i = 1) (p : Fin 2000) (q : Fin 128) (r : Fin 50000)
    (h0 : ∀ k, x0 (ix2 p k) = a0 (ix2 r k))
    (h1 : x1 (ix2 p (0 : Fin 1)) = aggCoef a2 r)
    (h2 : x2 = a3) (h3 : ∀ j, x3 (ix2 (0 : Fin 1) j) = a4 (ix1 j))
    (h4 : x4 = a5) (h5 : ∀ j, x5 (ix2 (0 : Fin 1) j) = a6 (ix1 j))
    (h6 : ∀ j, x6 (ix2 (0 : Fin 1) j) = colSums a7 j) (h7 : ∀ j, x7 (ix2 (0 : Fin 1) j) = a8 (ix1 j))
    (h8 : ∀ k j : Fin 128, x8 (ix2 k j) = a9 (ix2 ⟨k.val, by have := k.isLt; omega⟩ j))
    (h9 : ∀ k j : Fin 128, x9 (ix2 k j) = a9 (ix2 ⟨128 + k.val, by have := k.isLt; omega⟩ j))
    (h10 : ∀ j, x10 (ix2 (0 : Fin 1) j) = a10 (ix1 j)) (h11 : x11 = a11)
    (h12 : ∀ j, x12 (ix2 (0 : Fin 1) j) = a12 (ix1 j)) (h13 : x13 = a13)
    (h14 : ∀ j, x14 (ix2 (0 : Fin 1) j) = a14 (ix1 j)) :
    k0_pay1 (F := Ideal) (k0_pay2 (F := Ideal) x0 x2 x3 x4 x5) (k0_pay3 (F := Ideal) x1 x6 x7) (k0_pay4 (F := Ideal) x8)
        x9 x10 x11 x12 x13 x14 (ix2 p q)
      = Cert.ReferenceIdeal.Read.val_main_v68 (F := Ideal) a0 a1 a2 a3 a4 a5 a6 a7 a8 a9 a10 a11 a12 a13 a14 (ix2 r q) := by
  subst h2 h4 h11 h13
  show rowOf (k0_pay1 (F := Ideal) (k0_pay2 (F := Ideal) x0 x2 x3 x4 x5) (k0_pay3 (F := Ideal) x1 x6 x7) (k0_pay4 (F := Ideal) x8)
        x9 x10 x11 x12 x13 x14) p q
      = rowOf (Cert.ReferenceIdeal.Read.val_main_v68 (F := Ideal) a0 a1 a2 x2 a4 x4 a6 a7 a8 a9 a10 x11 a12 x13 a14) r q
  rw [Cert.KernelRows.row_projector, Cert.KernelRows.row_hidden, Cert.KernelRows.row_graph,
    Cert.RefRows.row_result, Cert.RefRows.row_hidden, Cert.RefRows.row_graph a1 a2 a7 a8 hx]
  have e0 : rowOf x0 p = rowOf a0 r := funext h0
  have e3 : rowOf x3 0 = fun j => a4 (ix1 j) := funext h3
  have e5 : rowOf x5 0 = fun j => a6 (ix1 j) := funext h5
  have e10 : rowOf x10 0 = fun j => a10 (ix1 j) := funext h10
  have e12 : rowOf x12 0 = fun j => a12 (ix1 j) := funext h12
  have e14 : rowOf x14 0 = fun j => a14 (ix1 j) := funext h14
  have eg : (fun j => x1 (ix2 p (0 : Fin 1)) * x6 (ix2 (0 : Fin 1) j) + x7 (ix2 (0 : Fin 1) j))
      = fun j => aggCoef a2 r * colSums a7 j + a8 (ix1 j) := funext fun j => by rw [h1, h6, h7]
  rw [e0, e3, e5, e10, e12, e14, eg, mix_eq_dense_join _ _ x8 x9 a9 _ h8 h9]

end Cert.KernelPoint

end
-- ==== Proof.KernelBlocks.lean ====
/-
  The kernel's windows, block by block.

  The grid has 25 points. At point t the feature window, the coefficient window and the output window hold rows
  2000·t … 2000·t + 1999 of their arrays (block index (t, 0)); every other window holds its whole array at every
  point (block index (0, 0)). A block's entry at coordinates y is therefore the array's entry at
  (block index × block size + y), axis by axis. The output blocks tile the [50000, 128] result: row r lies in the
  block of point r / 2000.
-/
import proofs.«148568_j63290638074042_2_alg».proof.Proof.Gen.KernelIdeal.Value
import Idealize.ShloMosaic.Lib.ValueIdx

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The index maps, decided over the grid -/

/-- The three windows that move with the grid point sit at block (t, 0). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_15.index t (0 : Fin 2) = t.val ∧ win0_15.index t (1 : Fin 2) = 0 :=
  (by decide +kernel : ∀ t : Fin grid0.N, _)

/-- Window 2 sits at block (0, 0) at every point. -/
theorem idx_w2 : ∀ t : Fin cfg0.N, win0_2.index t (0 : Fin 2) = 0 ∧ win0_2.index t (1 : Fin 2) = 0 :=
  (by decide +kernel : ∀ t : Fin grid0.N, _)

/-- Window 3 sits at block (0, 0) at every point. -/
theorem idx_w3 : ∀ t : Fin cfg0.N, win0_3.index t (0 : Fin 2) = 0 ∧ win0_3.index t (1 : Fin 2) = 0 :=
  (by decide +kernel : ∀ t : Fin grid0.N, _)

/-- Window 4 sits at block (0, 0) at every point. -/
theorem idx_w4 : ∀ t : Fin cfg0.N, win0_4.index t (0 : Fin 2) = 0 ∧ win0_4.index t (1 : Fin 2) = 0 :=
  (by decide +kernel : ∀ t : Fin grid0.N, _)

/-- Window 5 sits at block (0, 0) at every point. -/
theorem idx_w5 : ∀ t : Fin cfg0.N, win0_5.index t (0 : Fin 2) = 0 ∧ win0_5.index t (1 : Fin 2) = 0 :=
  (by decide +kernel : ∀ t : Fin grid0.N, _)

/-- Window 6 sits at block (0, 0) at every point. -/
theorem idx_w6 : ∀ t : Fin cfg0.N, win0_6.index t (0 : Fin 2) = 0 ∧ win0_6.index t (1 : Fin 2) = 0 :=
  (by decide +kernel : ∀ t : Fin grid0.N, _)

/-- Window 7 sits at block (0, 0) at every point. -/
theorem idx_w7 : ∀ t : Fin cfg0.N, win0_7.index t (0 : Fin 2) = 0 ∧ win0_7.index t (1 : Fin 2) = 0 :=
  (by decide +kernel : ∀ t : Fin grid0.N, _)

/-- Window 8 sits at block (0, 0) at every point. -/
theorem idx_w8 : ∀ t : Fin cfg0.N, win0_8.index t (0 : Fin 2) = 0 ∧ win0_8.index t (1 : Fin 2) = 0 :=
  (by decide +kernel : ∀ t : Fin grid0.N, _)

/-- Window 9 sits at block (0, 0) at every point. -/
theorem idx_w9 : ∀ t : Fin cfg0.N, win0_9.index t (0 : Fin 2) = 0 ∧ win0_9.index t (1 : Fin 2) = 0 :=
  (by decide +kernel : ∀ t : Fin grid0.N, _)

/-- Window 10 sits at block (0, 0) at every point. -/
theorem idx_w10 : ∀ t : Fin cfg0.N, win0_10.index t (0 : Fin 2) = 0 ∧ win0_10.index t (1 : Fin 2) = 0 :=
  (by decide +kernel : ∀ t : Fin grid0.N, _)

/-- Window 11 sits at block (0, 0) at every point. -/
theorem idx_w11 : ∀ t : Fin cfg0.N, win0_11.index t (0 : Fin 2) = 0 ∧ win0_11.index t (1 : Fin 2) = 0 :=
  (by decide +kernel : ∀ t : Fin grid0.N, _)

/-- Window 12 sits at block (0, 0) at every point. -/
theorem idx_w12 : ∀ t : Fin cfg0.N, win0_12.index t (0 : Fin 2) = 0 ∧ win0_12.index t (1 : Fin 2) = 0 :=
  (by decide +kernel : ∀ t : Fin grid0.N, _)

/-- Window 13 sits at block (0, 0) at every point. -/
theorem idx_w13 : ∀ t : Fin cfg0.N, win0_13.index t (0 : Fin 2) = 0 ∧ win0_13.index t (1 : Fin 2) = 0 :=
  (by decide +kernel : ∀ t : Fin grid0.N, _)

/-- Window 14 sits at block (0, 0) at every point. -/
theorem idx_w14 : ∀ t : Fin cfg0.N, win0_14.index t (0 : Fin 2) = 0 ∧ win0_14.index t (1 : Fin 2) = 0 :=
  (by decide +kernel : ∀ t : Fin grid0.N, _)

/-- A grid point's number is below 25. -/
theorem point_lt (t : Fin cfg0.N) : t.val < 25 := lt_of_lt_of_eq t.isLt (N_0 : cfg0.N = 25)

/-! ## The blocks read through their arrays -/

/-- The feature block at point t, row p: row 2000·t + p of the feature array. -/
theorem iblk_features (c : Dev nD) (t : Fin cfg0.N) (p : Fin 2000) (k : Fin 512) (r : Fin 50000)
    (hr : r.val = 2000 * t.val + p.val) :
    iblk m c 0 t (ix2 p k) = V m c main_arg0 (ix2 r k) := by
  obtain ⟨e0, e1, -⟩ := idx_moving t
  show V m c main_arg0 (((cfg0.win 0).blk t).view.emb (ix2 p k)) = _
  congr 1
  funext a; apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The coefficient block at point t, row p: entry 2000·t + p of the coefficient column. -/
theorem iblk_coef (c : Dev nD) (t : Fin cfg0.N) (p : Fin 2000) (u : Fin 1) (r : Fin 50000)
    (hr : r.val = 2000 * t.val + p.val) :
    iblk m c 1 t (ix2 p u) = V m c main_v40 (ix2 r u) := by
  obtain ⟨-, -, e0, e1, -⟩ := idx_moving t
  show V m c main_v40 (((cfg0.win 1).blk t).view.emb (ix2 p u)) = _
  congr 1
  funext a; apply Fin.ext
  match a with
  | ⟨0, _⟩ => show win0_1.index t (0 : Fin 2) * 2000 + 1 * p.val = r.val; rw [e0, hr]; omega
  | ⟨1, _⟩ => show win0_1.index t (1 : Fin 2) * 1 + 1 * u.val = u.val; rw [e1]; omega

/-- Window 2's block is its whole array at every point. -/
theorem iblk_w2 (c : Dev nD) (t : Fin cfg0.N) : (iblk m c 2 t : S512x128.Idx → Elt F .f32) = V m c main_arg3 := by
  obtain ⟨e0, e1⟩ := idx_w2 t
  funext y
  show V m c main_arg3 (((cfg0.win 2).blk t).view.emb y) = V m c main_arg3 y
  congr 1
  funext a; apply Fin.ext
  match a with
  | ⟨0, _⟩ => show win0_2.index t (0 : Fin 2) * 512 + 1 * (y 0).val = (y 0).val; rw [e0]; omega
  | ⟨1, _⟩ => show win0_2.index t (1 : Fin 2) * 128 + 1 * (y 1).val = (y 1).val; rw [e1]; omega

/-- Window 3's block is its whole array at every point. -/
theorem iblk_w3 (c : Dev nD) (t : Fin cfg0.N) : (iblk m c 3 t : S1x128.Idx → Elt F .f32) = V m c main_v0 := by
  obtain ⟨e0, e1⟩ := idx_w3 t
  funext y
  show V m c main_v0 (((cfg0.win 3).blk t).view.emb y) = V m c main_v0 y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4's block is its whole array at every point. -/
theorem iblk_w4 (c : Dev nD) (t : Fin cfg0.N) : (iblk m c 4 t : S128x128.Idx → Elt F .f32) = V m c main_arg5 := by
  obtain ⟨e0, e1⟩ := idx_w4 t
  funext y
  show V m c main_arg5 (((cfg0.win 4).blk t).view.emb y) = V m c main_arg5 y
  congr 1
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block is its whole array at every point. -/
theorem iblk_w5 (c : Dev nD) (t : Fin cfg0.N) : (iblk m c 5 t : S1x128.Idx → Elt F .f32) = V m c main_v1 := by
  obtain ⟨e0, e1⟩ := idx_w5 t
  funext y
  show V m c main_v1 (((cfg0.win 5).blk t).view.emb y) = V m c main_v1 y
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block is its whole array at every point. -/
theorem iblk_w6 (c : Dev nD) (t : Fin cfg0.N) : (iblk m c 6 t : S1x128.Idx → Elt F .f32) = V m c main_v7 := by
  obtain ⟨e0, e1⟩ := idx_w6 t
  funext y
  show V m c main_v7 (((cfg0.win 6).blk t).view.emb y) = V m c main_v7 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block is its whole array at every point. -/
theorem iblk_w7 (c : Dev nD) (t : Fin cfg0.N) : (iblk m c 7 t : S1x128.Idx → Elt F .f32) = V m c main_v2 := by
  obtain ⟨e0, e1⟩ := idx_w7 t
  funext y
  show V m c main_v2 (((cfg0.win 7).blk t).view.emb y) = V m c main_v2 y
  congr 1
  funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block is its whole array at every point. -/
theorem iblk_w8 (c : Dev nD) (t : Fin cfg0.N) : (iblk m c 8 t : S128x128.Idx → Elt F .f32) = V m c main_v41 := by
  obtain ⟨e0, e1⟩ := idx_w8 t
  funext y
  show V m c main_v41 (((cfg0.win 8).blk t).view.emb y) = V m c main_v41 y
  congr 1
  funext a; apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- Window 9's block is its whole array at every point. -/
theorem iblk_w9 (c : Dev nD) (t : Fin cfg0.N) : (iblk m c 9 t : S128x128.Idx → Elt F .f32) = V m c main_v42 := by
  obtain ⟨e0, e1⟩ := idx_w9 t
  funext y
  show V m c main_v42 (((cfg0.win 9).blk t).view.emb y) = V m c main_v42 y
  congr 1
  funext a; apply Fin.ext
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10's block is its whole array at every point. -/
theorem iblk_w10 (c : Dev nD) (t : Fin cfg0.N) : (iblk m c 10 t : S1x128.Idx → Elt F .f32) = V m c main_v3 := by
  obtain ⟨e0, e1⟩ := idx_w10 t
  funext y
  show V m c main_v3 (((cfg0.win 10).blk t).view.emb y) = V m c main_v3 y
  congr 1
  funext a; apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11's block is its whole array at every point. -/
theorem iblk_w11 (c : Dev nD) (t : Fin cfg0.N) : (iblk m c 11 t : S128x128.Idx → Elt F .f32) = V m c main_arg11 := by
  obtain ⟨e0, e1⟩ := idx_w11 t
  funext y
  show V m c main_arg11 (((cfg0.win 11).blk t).view.emb y) = V m c main_arg11 y
  congr 1
  funext a; apply Fin.ext
  match a with
  | ⟨0, _⟩ => show win0_11.index t (0 : Fin 2) * 128 + 1 * (y 0).val = (y 0).val; rw [e0]; omega
  | ⟨1, _⟩ => show win0_11.index t (1 : Fin 2) * 128 + 1 * (y 1).val = (y 1).val; rw [e1]; omega

/-- Window 12's block is its whole array at every point. -/
theorem iblk_w12 (c : Dev nD) (t : Fin cfg0.N) : (iblk m c 12 t : S1x128.Idx → Elt F .f32) = V m c main_v4 := by
  obtain ⟨e0, e1⟩ := idx_w12 t
  funext y
  show V m c main_v4 (((cfg0.win 12).blk t).view.emb y) = V m c main_v4 y
  congr 1
  funext a; apply Fin.ext
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

/-- Window 13's block is its whole array at every point. -/
theorem iblk_w13 (c : Dev nD) (t : Fin cfg0.N) : (iblk m c 13 t : S128x128.Idx → Elt F .f32) = V m c main_arg13 := by
  obtain ⟨e0, e1⟩ := idx_w13 t
  funext y
  show V m c main_arg13 (((cfg0.win 13).blk t).view.emb y) = V m c main_arg13 y
  congr 1
  funext a; apply Fin.ext
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega

/-- Window 14's block is its whole array at every point. -/
theorem iblk_w14 (c : Dev nD) (t : Fin cfg0.N) : (iblk m c 14 t : S1x128.Idx → Elt F .f32) = V m c main_v5 := by
  obtain ⟨e0, e1⟩ := idx_w14 t
  funext y
  show V m c main_v5 (((cfg0.win 14).blk t).view.emb y) = V m c main_v5 y
  congr 1
  funext a; apply Fin.ext
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

/-! ## The output blocks -/

/-- Where the output block of point t puts its entry (p, q): row 2000·t + p, column q. -/
theorem out_emb (t : Fin cfg0.N) (p : Fin 2000) (q : Fin 128) (r : Fin 50000) (hr : r.val = 2000 * t.val + p.val) :
    ((cfg0.win 15).blk t).view.emb (ix2 p q) = ix2 r q := by
  obtain ⟨-, -, -, -, e0, e1⟩ := idx_moving t
  funext a; apply Fin.ext
  match a with
  | ⟨0, _⟩ => show win0_15.index t (0 : Fin 2) * 2000 + 1 * p.val = r.val; rw [e0, hr]; omega
  | ⟨1, _⟩ => show win0_15.index t (1 : Fin 2) * 128 + 1 * q.val = q.val; rw [e1]; omega

/-- An index of the result is in point t's output block iff each coordinate is in the block's range on its axis. -/
theorem mem_out_blk (t : Fin cfg0.N) (i : S50000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v43).slice (win0_15.rect t)).set ↔ _
  rw [View.set_slice_whole, Rect.mem_set_unit]
  exact Iff.rfl

/-- Every index of the result lies in the output block of some point that writes back: row r in point r / 2000. -/
theorem out_cover (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : (i 0).val / 2000 < cfg0.N :=
    lt_of_lt_of_eq (by omega : (i 0).val / 2000 < 25) (N_0 : cfg0.N = 25).symm
  refine ⟨⟨(i 0).val / 2000, hN⟩, flush0_15 _, ?_⟩
  obtain ⟨-, -, -, -, e0, e1⟩ := idx_moving ⟨(i 0).val / 2000, hN⟩
  rw [mem_out_blk]
  intro a
  match a with
  | ⟨0, _⟩ =>
    show win0_15.index ⟨(i 0).val / 2000, hN⟩ (0 : Fin 2) * 2000 ≤ (i 0).val
      ∧ (i 0).val < win0_15.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_15.index ⟨(i 0).val / 2000, hN⟩ (1 : Fin 2) * 128 ≤ (i 1).val
      ∧ (i 1).val < win0_15.index ⟨(i 0).val / 2000, hN⟩ (1 : Fin 2) * 128 + 128
    rw [e1]
    omega

end Cert.KernelBlocks

end
-- ==== Proof.KernelHost.lean ====
/-
  What the kernel's region finds in the arrays that the host lines before it computed.

  Six bias vectors are viewed as one-row matrices; the projected row v is the first row of x_ones times Wg; the
  projector's first weight matrix is cut into its upper and lower halves; and the column s of aggregated
  coefficients is the scatter-add, into zeros and at the targets of the extended edge list, of the per-edge
  coefficients, viewed as a one-column matrix. The edge list, the targets and the coefficients are spelt by the very
  same operations as in the reference, so the column is stated over the reference's stages.
-/
import proofs.«148568_j63290638074042_2_alg».proof.Proof.Gen.KernelIdeal.Frame
import proofs.«148568_j63290638074042_2_alg».proof.Proof.Gen.ReferenceIdeal.Read
import Idealize.ShloMosaic.Lib.StableHlo.Run
import Idealize.ShloMosaic.PureOps.Ideal

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The one-row view of the hidden branch's first bias. -/
theorem V_b1 (c : Dev nD) : (V m c main_v0 : S1x128.Idx → EReal) = shapeCast S1x128 (m ((c : Thread nD τ).loc main_arg4)) shapeCasts_S128_S1x128 := by
  dsimp only [Gen.V, Gen.hostOps0]
  after_results_simp
  rfl

set_option maxHeartbeats 4000000 in
/-- The one-row view of the hidden branch's second bias. -/
theorem V_b2 (c : Dev nD) : (V m c main_v1 : S1x128.Idx → EReal) = shapeCast S1x128 (m ((c : Thread nD τ).loc main_arg6)) shapeCasts_S128_S1x128 := by
  dsimp only [Gen.V, Gen.hostOps0]
  after_results_simp
  rfl

set_option maxHeartbeats 4000000 in
/-- The one-row view of the graph layer's bias. -/
theorem V_bg (c : Dev nD) : (V m c main_v2 : S1x128.Idx → EReal) = shapeCast S1x128 (m ((c : Thread nD τ).loc main_arg8)) shapeCasts_S128_S1x128 := by
  dsimp only [Gen.V, Gen.hostOps0]
  after_results_simp
  rfl

set_option maxHeartbeats 4000000 in
/-- The one-row view of the projector's first bias. -/
theorem V_bp1 (c : Dev nD) : (V m c main_v3 : S1x128.Idx → EReal) = shapeCast S1x128 (m ((c : Thread nD τ).loc main_arg10)) shapeCasts_S128_S1x128 := by
  dsimp only [Gen.V, Gen.hostOps0]
  after_results_simp
  rfl

set_option maxHeartbeats 4000000 in
/-- The one-row view of the projector's second bias. -/
theorem V_bp2 (c : Dev nD) : (V m c main_v4 : S1x128.Idx → EReal) = shapeCast S1x128 (m ((c : Thread nD τ).loc main_arg12)) shapeCasts_S128_S1x128 := by
  dsimp only [Gen.V, Gen.hostOps0]
  after_results_simp
  rfl

set_option maxHeartbeats 4000000 in
/-- The one-row view of the projector's third bias. -/
theorem V_bp3 (c : Dev nD) : (V m c main_v5 : S1x128.Idx → EReal) = shapeCast S1x128 (m ((c : Thread nD τ).loc main_arg14)) shapeCasts_S128_S1x128 := by
  dsimp only [Gen.V, Gen.hostOps0]
  after_results_simp
  rfl

set_option maxHeartbeats 4000000 in
/-- The projected row: the first row of x_ones times Wg. -/
theorem V_v (c : Dev nD) : (V m c main_v7 : S1x128.Idx → EReal)
    = Host.dotGeneral (F := Ideal) (φ₁ := .f32) (φ₂ := .f32) dot_S1x512_S512x128_S1x128_1_0_0_1_n_n none
        (extractStridedSlice S1x512 ![0, 0] (m ((c : Thread nD τ).loc main_arg1) : FVec Ideal S50000x512 .f32) slices_S50000x512_S1x512_0_0 : FVec Ideal S1x512 .f32)
        (m ((c : Thread nD τ).loc main_arg7) : FVec Ideal S512x128 .f32) := by
  dsimp only [Gen.V, Gen.hostOps0]
  after_results_simp

set_option maxHeartbeats 4000000 in
/-- The upper half of the projector's first weight matrix. -/
theorem V_wa (c : Dev nD) : (V m c main_v41 : S128x128.Idx → EReal)
    = extractStridedSlice S128x128 ![0, 0] (m ((c : Thread nD τ).loc main_arg9) : FVec Ideal S256x128 .f32) slices_S256x128_S128x128_0_0 := by
  dsimp only [Gen.V, Gen.hostOps0]
  after_results_simp

set_option maxHeartbeats 4000000 in
/-- The lower half of the projector's first weight matrix. -/
theorem V_wb (c : Dev nD) : (V m c main_v42 : S128x128.Idx → EReal)
    = extractStridedSlice S128x128 ![128, 0] (m ((c : Thread nD τ).loc main_arg9) : FVec Ideal S256x128 .f32) slices_S256x128_S128x128_128_0 := by
  dsimp only [Gen.V, Gen.hostOps0]
  after_results_simp

end Cert.KernelHost

end
-- ==== Proof.KernelCoef.lean ====
/-
  The column of aggregated coefficients the kernel's region finds.

  The host lines before the region build the extended edge list (the given edges followed by one loop per node), count
  the targets into degrees, take 1/√(max(deg, 1)) per node, gather it at the two ends of every entry, multiply, and
  scatter-add the products at the targets into zeros. These are the same operations, on the same argument, as the
  reference's own, so the column is the reference's stages — the targets as a column and the per-entry coefficients —
  scatter-added into the reference's zeros and viewed as a one-column matrix.
-/
import proofs.«148568_j63290638074042_2_alg».proof.Proof.Gen.KernelIdeal.Frame
import proofs.«148568_j63290638074042_2_alg».proof.Proof.Gen.ReferenceIdeal.Read
import Idealize.ShloMosaic.Lib.StableHlo.Run
import Idealize.ShloMosaic.PureOps.Ideal

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 16000000 in
set_option maxRecDepth 65536 in
/-- The coefficient column as the region finds it. -/
theorem V_s (c : Dev nD) : (V m c main_v40 : S50000x1.Idx → EReal)
    = shapeCast S50000x1 (Host.scatterAdd (F := Ideal) (φ := .f32) scatter_S50000_S850000x1_S850000_n_0_0_1
        (Cert.ReferenceIdeal.Read.val_main_v18 (F := Ideal))
        (Cert.ReferenceIdeal.Read.val_main_v51 (F := Ideal) (m ((c : Thread nD τ).loc main_arg2)))
        (Cert.ReferenceIdeal.Read.val_main_v39 (F := Ideal) (m ((c : Thread nD τ).loc main_arg2))))
      shapeCasts_S50000_S50000x1 := by
  dsimp only [Gen.V, Gen.hostOps0]
  after_results_simp
  rfl

end Cert.KernelHost

end
-- ==== Proof.KernelArrays.lean ====
/-
  The host-computed arrays of the kernel, read at coordinates.

  A bias vector viewed as a one-row matrix reads, at (0, j), the vector at j. The projected row — the first row of
  x_ones times Wg — reads, at (0, j), the j-th column sum of Wg when x_ones is all ones. The upper and lower halves
  of the projector's first weight matrix read, at (k, j), the matrix at (k, j) and at (128 + k, j). The coefficient
  column reads, at (r, 0), the coefficient aggregated at node r: zero plus the coefficients of the entries of the
  extended edge list whose target is r.
-/
import proofs.«148568_j63290638074042_2_alg».proof.Proof.KernelHost
import proofs.«148568_j63290638074042_2_alg».proof.Proof.KernelCoef
import proofs.«148568_j63290638074042_2_alg».proof.Proof.RefMessage
import proofs.«148568_j63290638074042_2_alg».proof.Proof.LibColumnForms
import Idealize.ShloMosaic.Lib.ValueLayout

noncomputable section

open scoped BigOperators

namespace Cert.KernelArrays

open Idealize.ShloMosaic Idealize.ShloMosaic.ValueIdx
open Cert.RowLayers Cert.ColumnForms Cert.SelfLoops Cert.RefRows Cert.KernelIdeal Cert.KernelIdeal.Gen

/-- A bias vector viewed as a one-row matrix, at (0, j). -/
theorem bias_apply (x : FVec Ideal S128 .f32) (j : Fin 128) :
    shapeCast S1x128 x shapeCasts_S128_S1x128 (ix2 (0 : Fin 1) j) = x (ix1 j) :=
  shapeCast_a_1a_apply x shapeCasts_S128_S1x128 0 j

/-- The [1, 512] × [512, 128] product's dimension numbers say rows times columns. -/
theorem rtc1 : RowsTimesCols dot_S1x512_S512x128_S1x128_1_0_0_1_n_n where
  rank := rfl
  size := rfl
  lhs0 := fun j q => by
    unfold DotDims.lhsIdx
    rw [dif_neg (show ¬(0 : Fin S1x512.rank) ∈ dot_S1x512_S512x128_S1x128_1_0_0_1_n_n.lhsBatch by decide),
      dif_pos (show (0 : Fin S1x512.rank) ∈ dot_S1x512_S512x128_S1x128_1_0_0_1_n_n.lhsNonContracting by decide)]
    rfl
  lhs1 := fun j q => dot_S1x512_S512x128_S1x128_1_0_0_1_n_n.lhsIdx_val_of_single rfl j q
  rhs0 := fun j q => dot_S1x512_S512x128_S1x128_1_0_0_1_n_n.rhsIdx_val_of_single rfl j q
  rhs1 := fun j q => by
    unfold DotDims.rhsIdx
    rw [dif_neg (show ¬(1 : Fin S512x128.rank) ∈ dot_S1x512_S512x128_S1x128_1_0_0_1_n_n.rhsBatch by decide),
      dif_pos (show (1 : Fin S512x128.rank) ∈ dot_S1x512_S512x128_S1x128_1_0_0_1_n_n.rhsNonContracting by decide)]
    rfl

/-- The projected row at (0, j): with x_ones all ones, the j-th column sum of Wg. -/
theorem projected_apply (a1 : FVec Ideal S50000x512 .f32) (a7 : FVec Ideal S512x128 .f32) (hx : ∀ i, a1 i = 1) (j : Fin 128) :
    Host.dotGeneral (F := Ideal) (φ₁ := .f32) (φ₂ := .f32) dot_S1x512_S512x128_S1x128_1_0_0_1_n_n none
        (extractStridedSlice S1x512 ![0, 0] a1 slices_S50000x512_S1x512_0_0 : FVec Ideal S1x512 .f32) a7 (ix2 (0 : Fin 1) j)
      = colSums a7 j := by
  show rowOf (Host.dotGeneral (F := Ideal) (φ₁ := .f32) (φ₂ := .f32) dot_S1x512_S512x128_S1x128_1_0_0_1_n_n none
        (extractStridedSlice S1x512 ![0, 0] a1 slices_S50000x512_S1x512_0_0 : FVec Ideal S1x512 .f32) a7) 0 j = _
  rw [rowOf_dotGeneral rtc1]
  unfold colSums
  refine Finset.sum_congr rfl fun k _ => ?_
  rw [rowOf_apply, slice2_axis0_eq 0 a1 slices_S50000x512_S1x512_0_0 0 k, hx, one_mul]

/-- The upper half of the projector's first weight matrix at (k, j). -/
theorem upper_apply (a9 : FVec Ideal S256x128 .f32) (k j : Fin 128) :
    extractStridedSlice S128x128 ![0, 0] a9 slices_S256x128_S128x128_0_0 (ix2 k j)
      = a9 (ix2 ⟨k.val, by have := k.isLt; omega⟩ j) :=
  slice2_axis0_apply 0 a9 slices_S256x128_S128x128_0_0 k j ⟨k.val, by have := k.isLt; omega⟩ (Nat.zero_add _).symm

/-- The lower half of the projector's first weight matrix at (k, j). -/
theorem lower_apply (a9 : FVec Ideal S256x128 .f32) (k j : Fin 128) :
    extractStridedSlice S128x128 ![128, 0] a9 slices_S256x128_S128x128_128_0 (ix2 k j)
      = a9 (ix2 ⟨128 + k.val, by have := k.isLt; omega⟩ j) :=
  slice2_axis0_apply 128 a9 slices_S256x128_S128x128_128_0 k j ⟨128 + k.val, by have := k.isLt; omega⟩ rfl

/-- The coefficient column at (r, u): the coefficient aggregated at node r. -/
theorem coef_apply (a2 : IVec S2x800000 32) (r : Fin 50000) (u : Fin 1) :
    shapeCast S50000x1 (Host.scatterAdd (F := Ideal) (φ := .f32) scatter_S50000_S850000x1_S850000_n_0_0_1
        (Cert.ReferenceIdeal.Read.val_main_v18 (F := Ideal)) (Cert.ReferenceIdeal.Read.val_main_v51 (F := Ideal) a2)
        (Cert.ReferenceIdeal.Read.val_main_v39 (F := Ideal) a2)) shapeCasts_S50000_S50000x1 (ix2 r u)
      = aggCoef a2 r := by
  rw [shapeCast_a_a1_apply]
  refine (scatterAdd_entries_apply (φ := .f32) scatter_S50000_S850000x1_S850000_n_0_0_1_wf
    (Cert.ReferenceIdeal.Read.val_main_v18 (F := Ideal)) (Cert.ReferenceIdeal.Read.val_main_v51 (F := Ideal) a2)
    (Cert.ReferenceIdeal.Read.val_main_v39 (F := Ideal) a2) r).trans ?_
  unfold aggCoef
  rw [Cert.ReferenceIdeal.Read.val_main_v18_apply, Cert.ReferenceIdeal.Read.val_main_cst_0_apply, Ideal.ofBits_def]

end Cert.KernelArrays

end
-- ==== Proof.KernelValue.lean ====
/-
  The kernel's result array, as one function of the argument arrays.

  When every entry of x_ones is 1, what grid point t writes back is block t — rows 2000·t … 2000·t + 1999 — of the
  reference's result taken as a function of the kernel's own argument arrays: each entry of the block is the body's
  network on that row, and the blocks the body reads are the arrays the host lines prepared, read where the block's
  rectangle says. The 25 output blocks tile the result, so after the run the result array is that function.
-/
import proofs.«148568_j63290638074042_2_alg».proof.Proof.KernelPoint
import proofs.«148568_j63290638074042_2_alg».proof.Proof.KernelBlocks
import proofs.«148568_j63290638074042_2_alg».proof.Proof.KernelArrays

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelBlocks Cert.KernelArrays Cert.KernelHost Cert.KernelPoint

variable (m : (ℓ : Loc nD τ sig) → Buf (Elt Ideal) ℓ) (ρ : Dev nD → PrngReg)

/-- The reference's result as a function of the kernel's argument arrays on core c. -/
def result (c : Dev nD) : S50000x128.Idx → EReal :=
  Cert.ReferenceIdeal.Read.val_main_v68 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))

theorem hz : (![0, 0] : Fin 2 → Nat) = fun _ => 0 := funext fun a => by fin_cases a <;> rfl

/-- What point t writes back is block t of the result. -/
theorem flushed_eq (c : Dev nD) (hx : ∀ i, (m ((c : Thread nD τ).loc main_arg1) : S50000x512.Idx → EReal) i = (1 : EReal))
    (t : Fin cfg0.N) :
    (dats m 0 c).flushed 15 t = ((cfg0.win 15).blk t).view.read (Elt Ideal) (result m c) := by
  rw [Cert.KernelIdeal.Value.flushed15]
  unfold out0_15
  rw [View.canon_unit_zero hz]
  simp only [View.ld_unit_zero (S := S2000x512) hz, View.ld_unit_zero (S := S2000x1) hz, View.ld_unit_zero (S := S512x128) hz,
    View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have hr : 2000 * t.val + p.val < 50000 := by
    have h1 := point_lt t
    have h2 := p.isLt
    omega
  show k0_pay1 (F := Ideal) (k0_pay2 (F := Ideal) (iblk m c 0 t) (iblk m c 2 t) (iblk m c 3 t) (iblk m c 4 t) (iblk m c 5 t))
      (k0_pay3 (F := Ideal) (iblk m c 1 t) (iblk m c 6 t) (iblk m c 7 t)) (k0_pay4 (F := Ideal) (iblk m c 8 t))
      (iblk m c 9 t) (iblk m c 10 t) (iblk m c 11 t) (iblk m c 12 t) (iblk m c 13 t) (iblk m c 14 t) (ix2 p q)
    = result m c (((cfg0.win 15).blk t).view.emb (ix2 p q))
  rw [out_emb t p q ⟨2000 * t.val + p.val, hr⟩ rfl]
  exact point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    hx p q ⟨2000 * t.val + p.val, hr⟩
    (fun k => (iblk_features m c t p k ⟨2000 * t.val + p.val, hr⟩ rfl).trans (congrFun (V_main_arg0 m c) _))
    ((iblk_coef m c t p 0 ⟨2000 * t.val + p.val, hr⟩ rfl).trans ((congrFun (V_s m c) _).trans
      (coef_apply (m ((c : Thread nD τ).loc main_arg2)) ⟨2000 * t.val + p.val, hr⟩ 0)))
    ((iblk_w2 m c t).trans (V_main_arg3 m c))
    (fun j => (congrFun (iblk_w3 m c t) _).trans ((congrFun (V_b1 m c) _).trans (bias_apply (m ((c : Thread nD τ).loc main_arg4)) j)))
    ((iblk_w4 m c t).trans (V_main_arg5 m c))
    (fun j => (congrFun (iblk_w5 m c t) _).trans ((congrFun (V_b2 m c) _).trans (bias_apply (m ((c : Thread nD τ).loc main_arg6)) j)))
    (fun j => (congrFun (iblk_w6 m c t) _).trans ((congrFun (V_v m c) _).trans
      (projected_apply (m ((c : Thread nD τ).loc main_arg1)) (m ((c : Thread nD τ).loc main_arg7)) hx j)))
    (fun j => (congrFun (iblk_w7 m c t) _).trans ((congrFun (V_bg m c) _).trans (bias_apply (m ((c : Thread nD τ).loc main_arg8)) j)))
    (fun k j => (congrFun (iblk_w8 m c t) _).trans ((congrFun (V_wa m c) _).trans (upper_apply (m ((c : Thread nD τ).loc main_arg9)) k j)))
    (fun k j => (congrFun (iblk_w9 m c t) _).trans ((congrFun (V_wb m c) _).trans (lower_apply (m ((c : Thread nD τ).loc main_arg9)) k j)))
    (fun j => (congrFun (iblk_w10 m c t) _).trans ((congrFun (V_bp1 m c) _).trans (bias_apply (m ((c : Thread nD τ).loc main_arg10)) j)))
    ((iblk_w11 m c t).trans (V_main_arg11 m c))
    (fun j => (congrFun (iblk_w12 m c t) _).trans ((congrFun (V_bp2 m c) _).trans (bias_apply (m ((c : Thread nD τ).loc main_arg12)) j)))
    ((iblk_w13 m c t).trans (V_main_arg13 m c))
    (fun j => (congrFun (iblk_w14 m c t) _).trans ((congrFun (V_bp3 m c) _).trans (bias_apply (m ((c : Thread nD τ).loc main_arg14)) j)))

/-- After the run the result array is the reference's result of the kernel's argument arrays. -/
theorem final (c : Dev nD) (hx : ∀ i, (m ((c : Thread nD τ).loc main_arg1) : S50000x512.Idx → EReal) i = (1 : EReal)) :
    (dats m 0 c).arrAt 15 cfg0.N = result m c :=
  (dats m 0 c).arrAt_eq_of_cover 15 (result m c) (fun t _ => flushed_eq m c hx t) out_cover

/-- The kernel's run: it terminates with the result array at the reference's result of its argument arrays, the
    arguments unchanged. -/
theorem run (hx : ∀ (c : Dev nD) (i : S50000x512.Idx), (m ((c : Thread nD τ).loc main_arg1) : S50000x512.Idx → EReal) i = (1 : EReal)) :
    θ_run defs (onTc (τ := τ) (main (F := Ideal))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c (hx c)), (h c).2⟩) (Cert.KernelIdeal.Value.run_blocks m ρ)

end Cert.KernelValue

end
-- ==== Proof.PreOnes.lean ====
/-
  What the precondition says about x_ones.

  The precondition's last conjunct is jnp.all(x_ones == 1.0): a comparison of every entry of x_ones with the float
  pattern of 1.0, reduced by "and" over both axes into one truth value, and that value joined by "and" to the
  finiteness conjuncts. If the whole precondition is true then so is its last conjunct; a reduction by "and" into one
  value that is true had a true word at every index; over the extended reals the comparison at an index is true
  exactly when the entry equals the number the pattern denotes, which is 1.
-/
import proofs.«148568_j63290638074042_2_alg».proof.Pre_finite_inputs
import Idealize.ShloMosaic.PureOps.Ideal
import Idealize.ShloMosaic.Lib.ValueIdx
import Idealize.ShloMosaic.Lib.Affine
import Idealize.ShloMosaic.Lib.ReduceAll

noncomputable section

namespace Cert.PreOnes

open Idealize.ShloMosaic Cert.Pre_finite_inputs

variable [hF : Cert.Pre_finite_inputs.Facts]

instance : Subsingleton S_.Idx := ⟨fun a b => funext fun d => d.elim0⟩

/-- The float pattern of 1.0 denotes the number 1. -/
theorem one_pattern : Ideal.ofBits .f32 0x3F800000#32 = (1 : EReal) := by
  simp [Ideal.ofBits, Ideal.ieee, -EReal.coe_mul]; norm_num

/-- If the last stretch of the precondition is true, every entry of x_ones is 1. -/
theorem ones_of_last (x1 : FVec Ideal S50000x512 .f32) (a b : IVec S_ 1)
    (h : fn_part4 (F := Ideal) x1 a b = fun _ => 1#1) (i : S50000x512.Idx) : x1 i = 1 := by
  have h0 := congrFun h ValueIdx.ix0
  dsimp only [fn_part4] at h0
  have h1 := (IntOp.andi_eq_one.mp h0).2
  have h2 := Host.reduce_andi_all _ _ _ _ _ h1 i
  have h3 : Ideal.cmp .oeq (x1 i) (Ideal.ofBits .f32 0x3F800000#32) = 1#1 := h2
  unfold Ideal.cmp at h3
  have h4 : x1 i = Ideal.ofBits .f32 0x3F800000#32 := by
    by_contra hne
    simp [hne] at h3
  rw [h4, one_pattern]

/-- If the precondition is true of the argument arrays, every entry of x_ones (the second array) is 1. -/
theorem ones_of_pre (x0 x1 : FVec Ideal S50000x512 .f32) (x2 : IVec S2x800000 32) (x3 : FVec Ideal S512x128 .f32)
    (x4 : FVec Ideal S128 .f32) (x5 : FVec Ideal S128x128 .f32) (x6 : FVec Ideal S128 .f32) (x7 : FVec Ideal S512x128 .f32)
    (x8 : FVec Ideal S128 .f32) (x9 : FVec Ideal S256x128 .f32) (x10 : FVec Ideal S128 .f32) (x11 : FVec Ideal S128x128 .f32)
    (x12 : FVec Ideal S128 .f32) (x13 : FVec Ideal S128x128 .f32) (x14 : FVec Ideal S128 .f32)
    (h : fn (F := Ideal) x0 x1 x2 x3 x4 x5 x6 x7 x8 x9 x10 x11 x12 x13 x14 = fun _ => 1#1) (i : S50000x512.Idx) : x1 i = 1 := by
  unfold fn fn_part1 fn_part2 fn_part3 at h
  exact ones_of_last x1 _ _ h i

end Cert.PreOnes

end
-- ==== Proof.lean ====
/-
  A fused node-wise network with a graph branch, against its reference, over the extended reals.

  Both programs send node r's feature row through two rectified dense layers, add a graph row, and apply three more
  dense layers to the two rows; the last five layers differ only in spelling (the reference sets the two rows side by
  side and multiplies by a [256, 128] matrix, the kernel multiplies each row by its half of the matrix and adds) and
  agree with no finiteness. The graph row is where they differ. The reference forms xt = x_ones · Wg, gathers its
  rows at the sources of the extended edge list (the given edges and one loop per node), weights each by the edge's
  coefficient norm[src] · norm[dst], norm = 1/√(max(deg, 1)), and scatter-adds at the targets. The kernel takes only
  the FIRST row v of xt, scatter-adds the coefficients alone into one number s[r] per node, and forms s[r] · v + bg.
  The two agree when all rows of xt are one row, which is what the precondition's conjunct "x_ones is all ones"
  provides: every row of xt is then the column sums of Wg; the coefficients are nonnegative, and over the extended
  reals a factor moves out of a finite sum of nonnegative terms whatever the factor is, so Σₑ v·cₑ = v · Σₑ cₑ.
  No other part of the precondition is used.

  The three frames: the kernel's two are the generated frame proofs; the reference's is its generated run with the
  result dropped. The idealization rewrote nothing, so "preserves" is trivial. For the value claim the kernel's run is
  its generated blockwise run re-posted with the result array named as the reference's result of the kernel's own
  arguments (KernelValue), and the reference's run is its generated run, its result term read as the same function
  of arguments that agree.
-/
import proofs.«148568_j63290638074042_2_alg».proof.Defs
import proofs.«148568_j63290638074042_2_alg».proof.Proof.Gen.Kernel
import proofs.«148568_j63290638074042_2_alg».proof.Proof.Gen.Kernel.Skeleton
import proofs.«148568_j63290638074042_2_alg».proof.Proof.Gen.Kernel.Launch
import proofs.«148568_j63290638074042_2_alg».proof.Proof.Gen.Kernel.Points
import proofs.«148568_j63290638074042_2_alg».proof.Proof.Gen.Kernel.Frame
import proofs.«148568_j63290638074042_2_alg».proof.Proof.Gen.KernelIdeal
import proofs.«148568_j63290638074042_2_alg».proof.Proof.Gen.KernelIdeal.Skeleton
import proofs.«148568_j63290638074042_2_alg».proof.Proof.Gen.KernelIdeal.Launch
import proofs.«148568_j63290638074042_2_alg».proof.Proof.Gen.KernelIdeal.Points
import proofs.«148568_j63290638074042_2_alg».proof.Proof.Gen.KernelIdeal.Frame
import proofs.«148568_j63290638074042_2_alg».proof.Proof.Gen.ReferenceIdeal
import proofs.«148568_j63290638074042_2_alg».proof.Proof.Gen.Pre_finite_inputs
import proofs.«148568_j63290638074042_2_alg».proof.Proof.Gen.KernelIdeal.Value
import proofs.«148568_j63290638074042_2_alg».proof.Proof.Gen.ReferenceIdeal.Run
import proofs.«148568_j63290638074042_2_alg».proof.Proof.Gen.ReferenceIdeal.Read
import proofs.«148568_j63290638074042_2_alg».proof.Proof.KernelValue
import proofs.«148568_j63290638074042_2_alg».proof.Proof.PreOnes
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the kernel's result array and the reference's end at the same function of arguments that
    agree: the reference's result of them. -/
theorem algebraic : Cert.algebraic_KernelIdeal_ReferenceIdeal := by
  intro m ρ m' ρ' hpre hagree
  have hx : ∀ (c : Dev Cert.KernelIdeal.nD) (i : Cert.KernelIdeal.S50000x512.Idx),
      (m ((c.tc : Thread Cert.KernelIdeal.nD Cert.KernelIdeal.τ).loc Cert.KernelIdeal.main_arg1)
        : Cert.KernelIdeal.S50000x512.Idx → EReal) i = (1 : EReal) := fun c i =>
    Cert.PreOnes.ones_of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (hpre c) i
  refine ⟨fun c => Cert.KernelValue.result m c, Cert.KernelValue.run m ρ hx, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v68_eq, e0, e1, e2, e3, e4, e5, e6, e7, e8, e9, e10, e11, e12, e13, e14]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
